-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x16384 : Shape := ⟨3, ![64, 128, 16384]⟩
abbrev S_ : Shape := ⟨0, ![]⟩

class Facts : Prop where
  bcast_S_S64x128x16384 : S_.BroadcastsInDim S64x128x16384 (![] : Fin 0 → Fin S64x128x16384.rank)
  reducesTo_S64x128x16384_S_d0_1_2 : S64x128x16384.ReducesTo [0, 1, 2] S_
  h_S_ : 0 < S_.numel

variable [Facts]

def fn {F : FTy → Type} [FloatOps F] (main_arg0 : FVec F S64x128x16384 .f32) : IVec S_ 1 :=
  let main_v0 : FVec F S64x128x16384 .f32 := Host.absf main_arg0
  let main_cst : FVec F S_ .f32 := constant S_ .f32 0x7F800000#32
  let main_v1 : FVec F S64x128x16384 .f32 := broadcastInDim S64x128x16384 ![] bcast_S_S64x128x16384 main_cst
  let main_v2 : IVec S64x128x16384 1 := cmpf .olt main_v0 main_v1
  let main_c : IVec S_ 1 := constantI S_ 1 1#1
  let main_v3 : IVec S_ 1 := (fun x v => Host.reduce IntOp.andi x v reducesTo_S64x128x16384_S_d0_1_2 h_S_) main_v2 main_c
  main_v3
-- ==== Kernel.lean ====
abbrev S64x128x16384 : Shape := ⟨3, ![64, 128, 16384]⟩
abbrev S8192x8192x2 : Shape := ⟨3, ![8192, 8192, 2]⟩
abbrev S8192x8192x1 : Shape := ⟨3, ![8192, 8192, 1]⟩
abbrev S8192x8192 : Shape := ⟨2, ![8192, 8192]⟩
abbrev S8192x2x8192 : Shape := ⟨3, ![8192, 2, 8192]⟩
abbrev S64x8192 : Shape := ⟨2, ![64, 8192]⟩
abbrev S64x2x8192 : Shape := ⟨3, ![64, 2, 8192]⟩
abbrev S64x1x8192 : Shape := ⟨3, ![64, 1, 8192]⟩
abbrev S64x256x8192 : Shape := ⟨3, ![64, 256, 8192]⟩

abbrev nBuf : Space → Nat
  | .hbm => 8
  | .vmem => 6
  | .smem => 0
  | _ => 0

abbrev bufTy : (tb : Table) → Fin (tcTables nBuf tb) → BufTy
  | .hbm, ⟨0, _⟩ => ⟨S64x128x16384, .f32⟩
  | .hbm, ⟨1, _⟩ => ⟨S8192x8192x2, .f32⟩
  | .hbm, ⟨2, _⟩ => ⟨S8192x8192x1, .f32⟩
  | .hbm, ⟨3, _⟩ => ⟨S8192x8192, .f32⟩
  | .hbm, ⟨4, _⟩ => ⟨S8192x8192x1, .f32⟩
  | .hbm, ⟨5, _⟩ => ⟨S8192x8192, .f32⟩
  | .hbm, ⟨6, _⟩ => ⟨S8192x2x8192, .f32⟩
  | .hbm, ⟨7, _⟩ => ⟨S64x256x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x2x8192, .f32⟩
  | .local _ .vmem, ⟨5, _⟩ => ⟨S64x2x8192, .f32⟩
  | _, _ => ⟨S64x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x128x16384_S8192x8192x2 : S64x128x16384.ShapeCasts S8192x8192x2
  slices_S8192x8192x2_S8192x8192x1_0_0_0 : S8192x8192x2.Slices ![0, 0, 0] S8192x8192x1
  shapeCasts_S8192x8192x1_S8192x8192 : S8192x8192x1.ShapeCasts S8192x8192
  slices_S8192x8192x2_S8192x8192x1_0_0_1 : S8192x8192x2.Slices ![0, 0, 1] S8192x8192x1
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S64x2x8192_S64x1x8192_0_0_0 : ∀ a, (![0, 0, 0] : Fin 3 → Nat) a + S64x1x8192.size a ≤ S64x2x8192.size a
  h_S64x1x8192 : 0 < S64x1x8192.numel
  shapeCasts_S64x1x8192_S64x8192 : S64x1x8192.ShapeCasts S64x8192
  shapeCasts_S64x8192_S64x1x8192 : S64x8192.ShapeCasts S64x1x8192
  inb_S64x2x8192_S64x1x8192_0_1_0 : ∀ a, (![0, 1, 0] : Fin 3 → Nat) a + S64x1x8192.size a ≤ S64x2x8192.size a
  shapeCasts_S8192x2x8192_S64x256x8192 : S8192x2x8192.ShapeCasts S64x256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S8192x8192.size a
  hwx0_0 : ∀ i : grid0.Coords, EltTy.bits .f32 = 32 ∨ (Rect.block (s := S8192x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S8192x8192.size a
  hwx0_1 : ∀ i : grid0.Coords, EltTy.bits .f32 = 32 ∨ (Rect.block (s := S8192x8192) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2x8192.size a ≤ S8192x2x8192.size a
  hwx0_2 : ∀ i : grid0.Coords, EltTy.bits .f32 = 32 ∨ (Rect.block (s := S8192x2x8192) S64x2x8192.size (cc0_transform_2 i) (hinb0_2 i)).WholeWords (EltTy.packing .f32)

variable [Facts₀]

abbrev win0_0 : Pipeline.Window sig grid0 :=
  Pipeline.Window.ofSpec (Memref.whole main_v2) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x2x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128x16384 : Shape := ⟨3, ![64, 128, 16384]⟩
abbrev S64x128x8192x2 : Shape := ⟨4, ![64, 128, 8192, 2]⟩
abbrev S64x128x8192x1 : Shape := ⟨4, ![64, 128, 8192, 1]⟩
abbrev S64x128x8192 : Shape := ⟨3, ![64, 128, 8192]⟩
abbrev S_ : Shape := ⟨0, ![]⟩
abbrev S64x128x1x8192 : Shape := ⟨4, ![64, 128, 1, 8192]⟩
abbrev S64x128x2x8192 : Shape := ⟨4, ![64, 128, 2, 8192]⟩
abbrev S64x256x8192 : Shape := ⟨3, ![64, 256, 8192]⟩

abbrev nBuf : Space → Nat
  | .hbm => 18
  | .vmem => 0
  | .smem => 0
  | _ => 0

abbrev bufTy : (tb : Table) → Fin (tcTables nBuf tb) → BufTy
  | .hbm, ⟨0, _⟩ => ⟨S64x128x16384, .f32⟩
  | .hbm, ⟨1, _⟩ => ⟨S64x128x8192x2, .f32⟩
  | .hbm, ⟨2, _⟩ => ⟨S64x128x8192x1, .f32⟩
  | .hbm, ⟨3, _⟩ => ⟨S64x128x8192, .f32⟩
  | .hbm, ⟨4, _⟩ => ⟨S64x128x8192x1, .f32⟩
  | .hbm, ⟨5, _⟩ => ⟨S64x128x8192, .f32⟩
  | .hbm, ⟨6, _⟩ => ⟨S64x128x8192, .f32⟩
  | .hbm, ⟨7, _⟩ => ⟨S_, .f32⟩
  | .hbm, ⟨8, _⟩ => ⟨S64x128x8192, .f32⟩
  | .hbm, ⟨9, _⟩ => ⟨S64x128x8192, .f32⟩
  | .hbm, ⟨10, _⟩ => ⟨S64x128x8192, .f32⟩
  | .hbm, ⟨11, _⟩ => ⟨S_, .f32⟩
  | .hbm, ⟨12, _⟩ => ⟨S64x128x8192, .f32⟩
  | .hbm, ⟨13, _⟩ => ⟨S64x128x8192, .f32⟩
  | .hbm, ⟨14, _⟩ => ⟨S64x128x1x8192, .f32⟩
  | .hbm, ⟨15, _⟩ => ⟨S64x128x1x8192, .f32⟩
  | .hbm, ⟨16, _⟩ => ⟨S64x128x2x8192, .f32⟩
  | .hbm, ⟨17, _⟩ => ⟨S64x256x8192, .f32⟩
  | _, _ => ⟨S64x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  shapeCasts_S64x128x16384_S64x128x8192x2 : S64x128x16384.ShapeCasts S64x128x8192x2
  slices_S64x128x8192x2_S64x128x8192x1_0_0_0_0 : S64x128x8192x2.Slices ![0, 0, 0, 0] S64x128x8192x1
  shapeCasts_S64x128x8192x1_S64x128x8192 : S64x128x8192x1.ShapeCasts S64x128x8192
  slices_S64x128x8192x2_S64x128x8192x1_0_0_0_1 : S64x128x8192x2.Slices ![0, 0, 0, 1] S64x128x8192x1
  bcast_S_S64x128x8192 : S_.BroadcastsInDim S64x128x8192 (![] : Fin 0 → Fin S64x128x8192.rank)
  bcast_S64x128x8192_S64x128x1x8192_0_1_3 : S64x128x8192.BroadcastsInDim S64x128x1x8192 (![0, 1, 3] : Fin 3 → Fin S64x128x1x8192.rank)
  concatenates_S64x128x1x8192_S64x128x1x8192_S64x128x2x8192_d2 : Shape.Concatenates [S64x128x1x8192, S64x128x1x8192] S64x128x2x8192 2
  shapeCasts_S64x128x2x8192_S64x256x8192 : S64x128x2x8192.ShapeCasts S64x256x8192

variable [Facts₀]

class Facts : Prop extends Facts₀ where

variable [Facts]
-- ==== Proof.HaarSpec.lean ====
/-
  The single-level Haar transform along the last axis, as one function of the signal array.

  A signal x of shape [64, 128, 16384] is 8192 rows (row n = batch n / 128, channel n % 128) of 8192 adjacent pairs
  (x[2k], x[2k+1]). Each pair gives an approximation coefficient (x[2k] + x[2k+1]) · c and a detail coefficient
  (x[2k] - x[2k+1]) · c, with c the one float word both programs carry. The result [64, 256, 8192] interleaves the two
  coefficient rows of every channel: output channel 2·ch + p is band p of input channel ch.

  Nothing here depends on what the float operations are: the two programs apply the same operations to the same
  operands in the same order, so the statement is made for any float instance.
-/
import Idealize.ShloMosaic.PureOps
import Idealize.ShloMosaic.Lib.ValueIdx
import Idealize.ShloMosaic.Lib.Pipeline.Value

noncomputable section

namespace Cert.Haar

open Idealize.ShloMosaic Idealize.ShloMosaic.ValueIdx

variable {F : FTy → Type} [FloatOps F]

/-- The signal: [batch, channel, time]. -/
abbrev Signal : Shape := ⟨3, ![64, 128, 16384]⟩
/-- The even (or odd) samples of every row: [row, pair]. -/
abbrev Halves : Shape := ⟨2, ![8192, 8192]⟩
/-- Both coefficient rows of every row: [row, band, pair]. -/
abbrev Rows : Shape := ⟨3, ![8192, 2, 8192]⟩
/-- The result: [batch, 2 · channel + band, pair]. -/
abbrev Bands : Shape := ⟨3, ![64, 256, 8192]⟩

/-- The filter coefficient, the float word both programs multiply by. -/
def coef : F .f32 := FloatOps.ofBits .f32 0x3F3504F3#32

/-- One coefficient from a pair (e, o): band 0 is (e + o) · c, any other band (e - o) · c. -/
def band (p : Nat) (e o : F .f32) : F .f32 :=
  if p = 0 then FloatOps.mulf (FloatOps.addf e o) coef else FloatOps.mulf (FloatOps.subf e o) coef

/-- Sample s (0 even, 1 odd) of pair k of row n of the signal. -/
def sample (x : Signal.Idx → F .f32) (n : Fin 8192) (k : Fin 8192) (s : Fin 2) : F .f32 :=
  x (ix3 (⟨n.val / 128, by have := n.isLt; omega⟩ : Fin 64) (⟨n.val % 128, by omega⟩ : Fin 128)
    (⟨2 * k.val + s.val, by have := k.isLt; have := s.isLt; omega⟩ : Fin 16384))

/-- A sample of row n = 128 · b + ch is the signal at batch b, channel ch. -/
theorem sample_at (x : Signal.Idx → F .f32) (b : Fin 64) (ch : Fin 128) (k : Fin 8192) (s : Fin 2) (n : Fin 8192)
    (hn : n.val = b.val * 128 + ch.val) :
    sample x n k s = x (ix3 b ch (⟨2 * k.val + s.val, by have := k.isLt; have := s.isLt; omega⟩ : Fin 16384)) := by
  have hb := b.isLt
  have hc := ch.isLt
  unfold sample
  exact congrArg x (funext fun a => match a with
    | ⟨0, _⟩ => Fin.ext (by show n.val / 128 = b.val; omega)
    | ⟨1, _⟩ => Fin.ext (by show n.val % 128 = ch.val; omega)
    | ⟨2, _⟩ => rfl)

/-- A sample depends on its row and pair through their values only. -/
theorem sample_congr (x : Signal.Idx → F .f32) (s : Fin 2) {n n' k k' : Fin 8192} (hn : n.val = n'.val) (hk : k.val = k'.val) :
    sample x n k s = sample x n' k' s := by
  cases Fin.ext hn
  cases Fin.ext hk
  rfl

/-- The even (s = 0) or odd (s = 1) samples, row by row. -/
def half (s : Fin 2) (x : Signal.Idx → F .f32) : Halves.Idx → F .f32 :=
  fun j => sample x (j 0) (j 1) s

/-- Both coefficient rows of every row of the signal. -/
def rows (x : Signal.Idx → F .f32) : Rows.Idx → F .f32 :=
  fun j => band (j 1).val (sample x (j 0) (j 2) 0) (sample x (j 0) (j 2) 1)

/-- The coefficient rows at an entry named by its coordinates. -/
theorem rows_at (x : Signal.Idx → F .f32) (i : Rows.Idx) (n : Fin 8192) (p : Nat) (k : Fin 8192)
    (h0 : (i 0).val = n.val) (h1 : (i 1).val = p) (h2 : (i 2).val = k.val) :
    rows x i = band p (sample x n k 0) (sample x n k 1) := by
  have e0 : i 0 = n := Fin.ext h0
  have e2 : i 2 = k := Fin.ext h2
  unfold rows
  rw [e0, e2, h1]

/-- The transform: at (b, q, k) band q % 2 of pair k of channel q / 2 of batch b. -/
def haar (x : Signal.Idx → F .f32) : Bands.Idx → F .f32 :=
  fun i => band ((i 1).val % 2)
    (sample x ⟨(i 0).val * 128 + (i 1).val / 2, by have h0 : (i 0).val < 64 := (i 0).isLt; have h1 : (i 1).val < 256 := (i 1).isLt; omega⟩ (i 2) 0)
    (sample x ⟨(i 0).val * 128 + (i 1).val / 2, by have h0 : (i 0).val < 64 := (i 0).isLt; have h1 : (i 1).val < 256 := (i 1).isLt; omega⟩ (i 2) 1)

/-- Row n = 128 · b + ch carries its two bands at positions 2 · n and 2 · n + 1 of the flattened channel axis, which
    are output channels 2 · ch and 2 · ch + 1 of batch b: the row-major reshape of the coefficient rows is the transform. -/
theorem rows_reshape (x : Signal.Idx → F .f32) (h : Rows.ShapeCasts Bands) :
    shapeCast Bands (rows x) h = haar x := by
  funext i
  obtain ⟨b, q, k, rfl⟩ : ∃ (b : Fin 64) (q : Fin 256) (k : Fin 8192), i = ix3 b q k := ⟨i 0, i 1, i 2, eq_ix3 i⟩
  have hb := b.isLt
  have hq := q.isLt
  refine (shapeCast_apply (rows x) h (ix3 b q k)
    (ix3 (⟨b.val * 128 + q.val / 2, by omega⟩ : Fin 8192) (⟨q.val % 2, by omega⟩ : Fin 2) k) ?_).trans ?_
  · rewrite [Shape.rowMajor_val_three, Shape.rowMajor_val_three]
    show ((b.val * 128 + q.val / 2) * 2 + q.val % 2) * 8192 + k.val = (b.val * 256 + q.val) * 8192 + k.val
    omega
  · rfl

end Cert.Haar

end
-- ==== Proof.HaarReference.lean ====
/-
  The reference computes the Haar transform of its argument.

  Its operations, one at a time: the signal is viewed as pairs [64, 128, 8192, 2]; the two unit slices of the last
  axis, with that axis dropped, are the even and the odd samples [64, 128, 8192]; their sum and their difference are
  each multiplied by the coefficient; the two products, given a unit axis in third place, are joined along it to
  [64, 128, 2, 8192]; and the row-major reshape to [64, 256, 8192] merges the channel and band axes. Read at an entry
  (b, q, k) from the last operation to the first: the merged channel q is channel q / 2, band q % 2; band 0 is the
  first joined piece, band 1 the second; a piece at (b, ch, ·, k) is its product at (b, ch, k); the even and odd
  samples at (b, ch, k) are the signal at (b, ch, 2k) and (b, ch, 2k + 1).
-/
import proofs.«151751_j86955907874867_2_alg».proof.Proof.Gen.ReferenceIdeal.Read
import proofs.«151751_j86955907874867_2_alg».proof.Proof.HaarSpec

noncomputable section

namespace Cert.Haar.Reference

open Idealize.ShloMosaic Idealize.ShloMosaic.ValueIdx
open Cert.ReferenceIdeal Cert.ReferenceIdeal.Gen Cert.ReferenceIdeal.Read Cert.Haar

variable {F : FTy → Type} [FloatOps F]

/-- The even sample of pair k of channel ch of batch b is the signal at time 2k: the pairs' row-major position
    ((b · 128 + ch) · 8192 + k) · 2 + 0 is the signal's (b · 128 + ch) · 16384 + 2k. -/
theorem even_idx (b : Fin 64) (ch : Fin 128) (k : Fin 8192) :
    idx_main_v0 (idx_main_v1 (idx_main_v2 (ix3 b ch k))) = ix3 b ch (⟨2 * k.val + 0, by have := k.isLt; omega⟩ : Fin 16384) := by
  have hb := b.isLt
  have hc := ch.isLt
  have hk := k.isLt
  funext a
  match a with
  | ⟨0, _⟩ => exact Fin.ext (by show ((((((b.val * 128 + ch.val) * 8192 + k.val) / 1048576) * 128 + ((b.val * 128 + ch.val) * 8192 + k.val) / 8192 % 128) * 8192 + ((b.val * 128 + ch.val) * 8192 + k.val) / 1 % 8192) * 2 + 0) / 2097152 = b.val; omega)
  | ⟨1, _⟩ => exact Fin.ext (by show ((((((b.val * 128 + ch.val) * 8192 + k.val) / 1048576) * 128 + ((b.val * 128 + ch.val) * 8192 + k.val) / 8192 % 128) * 8192 + ((b.val * 128 + ch.val) * 8192 + k.val) / 1 % 8192) * 2 + 0) / 16384 % 128 = ch.val; omega)
  | ⟨2, _⟩ => exact Fin.ext (by show ((((((b.val * 128 + ch.val) * 8192 + k.val) / 1048576) * 128 + ((b.val * 128 + ch.val) * 8192 + k.val) / 8192 % 128) * 8192 + ((b.val * 128 + ch.val) * 8192 + k.val) / 1 % 8192) * 2 + 0) % 16384 = 2 * k.val + 0; omega)

/-- The odd sample of pair k of channel ch of batch b is the signal at time 2k + 1. -/
theorem odd_idx (b : Fin 64) (ch : Fin 128) (k : Fin 8192) :
    idx_main_v0 (idx_main_v3 (idx_main_v4 (ix3 b ch k))) = ix3 b ch (⟨2 * k.val + 1, by have := k.isLt; omega⟩ : Fin 16384) := by
  have hb := b.isLt
  have hc := ch.isLt
  have hk := k.isLt
  funext a
  match a with
  | ⟨0, _⟩ => exact Fin.ext (by show ((((((b.val * 128 + ch.val) * 8192 + k.val) / 1048576) * 128 + ((b.val * 128 + ch.val) * 8192 + k.val) / 8192 % 128) * 8192 + ((b.val * 128 + ch.val) * 8192 + k.val) / 1 % 8192) * 2 + (1 + 0)) / 2097152 = b.val; omega)
  | ⟨1, _⟩ => exact Fin.ext (by show ((((((b.val * 128 + ch.val) * 8192 + k.val) / 1048576) * 128 + ((b.val * 128 + ch.val) * 8192 + k.val) / 8192 % 128) * 8192 + ((b.val * 128 + ch.val) * 8192 + k.val) / 1 % 8192) * 2 + (1 + 0)) / 16384 % 128 = ch.val; omega)
  | ⟨2, _⟩ => exact Fin.ext (by show ((((((b.val * 128 + ch.val) * 8192 + k.val) / 1048576) * 128 + ((b.val * 128 + ch.val) * 8192 + k.val) / 8192 % 128) * 8192 + ((b.val * 128 + ch.val) * 8192 + k.val) / 1 % 8192) * 2 + (1 + 0)) % 16384 = 2 * k.val + 1; omega)

/-- A joined piece at (b, ch, ·, k) is its operand at (b, ch, k). -/
theorem piece0_idx (b : Fin 64) (ch : Fin 128) (u : Fin 1) (k : Fin 8192) : idx_main_v11 (ix4 b ch u k) = ix3 b ch k := by
  funext a
  match a with
  | ⟨0, _⟩ => rfl
  | ⟨1, _⟩ => rfl
  | ⟨2, _⟩ => rfl
theorem piece1_idx (b : Fin 64) (ch : Fin 128) (u : Fin 1) (k : Fin 8192) : idx_main_v12 (ix4 b ch u k) = ix3 b ch k := by
  funext a
  match a with
  | ⟨0, _⟩ => rfl
  | ⟨1, _⟩ => rfl
  | ⟨2, _⟩ => rfl

/-- The merged channel q of the result is channel q / 2, band q % 2 of the joined array. -/
theorem merged_idx (b : Fin 64) (q : Fin 256) (k : Fin 8192) :
    idx_main_v14 (ix3 b q k)
      = ix4 b (⟨q.val / 2, by have := q.isLt; omega⟩ : Fin 128) (⟨q.val % 2, by omega⟩ : Fin 2) k := by
  have hb := b.isLt
  have hq := q.isLt
  have hk := k.isLt
  funext a
  match a with
  | ⟨0, _⟩ => exact Fin.ext (by show ((b.val * 256 + q.val) * 8192 + k.val) / 2097152 = b.val; omega)
  | ⟨1, _⟩ => exact Fin.ext (by show ((b.val * 256 + q.val) * 8192 + k.val) / 16384 % 128 = q.val / 2; omega)
  | ⟨2, _⟩ => exact Fin.ext (by show ((b.val * 256 + q.val) * 8192 + k.val) / 8192 % 2 = q.val % 2; omega)
  | ⟨3, _⟩ => exact Fin.ext (by show ((b.val * 256 + q.val) * 8192 + k.val) % 8192 = k.val; omega)

/-- The reference's last stage is the transform of the signal. -/
theorem reference_eq (x : Signal.Idx → F .f32) : val_main_v14 (F := F) x = haar x := by
  funext i
  obtain ⟨b, q, k, rfl⟩ : ∃ (b : Fin 64) (q : Fin 256) (k : Fin 8192), i = ix3 b q k := ⟨i 0, i 1, i 2, eq_ix3 i⟩
  have hb := b.isLt
  have hq := q.isLt
  refine Eq.trans ?_ (show band (q.val % 2) (sample x ⟨b.val * 128 + q.val / 2, by omega⟩ k 0)
    (sample x ⟨b.val * 128 + q.val / 2, by omega⟩ k 1) = haar x (ix3 b q k) from rfl)
  rw [sample_at x b ⟨q.val / 2, by omega⟩ k 0 _ rfl, sample_at x b ⟨q.val / 2, by omega⟩ k 1 _ rfl]
  rw [val_main_v14_apply, merged_idx]
  unfold val_main_v13
  rcases Nat.mod_two_eq_zero_or_one q.val with hq2 | hq2
  · refine (concatenate_pair_apply_left (2 : Fin 4) (val_main_v11 (F := F) x) (val_main_v12 (F := F) x) _
        (ix4 b (⟨q.val / 2, by omega⟩ : Fin 128) (⟨q.val % 2, by omega⟩ : Fin 2) k) rfl
        (ix4 b (⟨q.val / 2, by omega⟩ : Fin 128) (0 : Fin 1) k) ?_).trans ?_
    · intro a
      match a with
      | ⟨0, _⟩ => rfl
      | ⟨1, _⟩ => rfl
      | ⟨2, _⟩ => show 0 = q.val % 2; omega
      | ⟨3, _⟩ => rfl
    · rw [val_main_v11_apply, piece0_idx, val_main_v7_apply, val_main_v5_apply, val_main_v2_apply, val_main_v1_apply,
        val_main_v0_apply, val_main_v4_apply, val_main_v3_apply, val_main_v0_apply, val_main_v6_apply, even_idx, odd_idx, hq2]
      rfl
  · refine (concatenate_pair_apply_right (2 : Fin 4) (val_main_v11 (F := F) x) (val_main_v12 (F := F) x) _
        (ix4 b (⟨q.val / 2, by omega⟩ : Fin 128) (⟨q.val % 2, by omega⟩ : Fin 2) k) rfl rfl
        (ix4 b (⟨q.val / 2, by omega⟩ : Fin 128) (0 : Fin 1) k) ?_ ?_).trans ?_
    · intro a ha
      match a with
      | ⟨0, _⟩ => rfl
      | ⟨1, _⟩ => rfl
      | ⟨2, _⟩ => exact absurd rfl ha
      | ⟨3, _⟩ => rfl
    · show 0 + 1 = q.val % 2
      omega
    · rw [val_main_v12_apply, piece1_idx, val_main_v10_apply, val_main_v8_apply, val_main_v2_apply, val_main_v1_apply,
        val_main_v0_apply, val_main_v4_apply, val_main_v3_apply, val_main_v0_apply, val_main_v9_apply, even_idx, odd_idx, hq2]
      rfl

end Cert.Haar.Reference

end
-- ==== Proof.HaarBody.lean ====
/-
  What the kernel body leaves in its output block.

  At a grid point the body holds 64 rows of even samples e and of odd samples o, each [64, 8192], and fills its
  [64, 2, 8192] output block with two stores: plane 0 (every row's band 0) with (e + o) · c and plane 1 with (e - o) · c,
  each product given a unit middle axis. The two planes tile the block, so the block is ONE function of (e, o):
  at (r, p, k) band p of the pair (e[r, k], o[r, k]).
-/
import proofs.«151751_j86955907874867_2_alg».proof.Proof.Gen.KernelIdeal.Frame
import proofs.«151751_j86955907874867_2_alg».proof.Proof.HaarSpec

noncomputable section

namespace Cert.Haar.Body

open Idealize.ShloMosaic Idealize.ShloMosaic.ValueIdx
open Cert.KernelIdeal Cert.KernelIdeal.Gen Cert.Haar

variable {F : FTy → Type} [FloatOps F]

/-- The output block from the two input blocks: at (r, p, k) band p of the pair (e[r, k], o[r, k]). -/
def blockOut (e o : Vec F S64x8192 .f32) : Vec F S64x2x8192 .f32 :=
  fun y => band (y 1).val (e (ix2 (y 0) (y 2))) (o (ix2 (y 0) (y 2)))

/-- The block at an entry named by its coordinates. -/
theorem blockOut_at (e o : Vec F S64x8192 .f32) (y : S64x2x8192.Idx) (r : Fin 64) (p : Nat) (k : Fin 8192)
    (h0 : (y 0).val = r.val) (h1 : (y 1).val = p) (h2 : (y 2).val = k.val) :
    blockOut e o y = band p (e (ix2 r k)) (o (ix2 r k)) := by
  have e0 : y 0 = r := Fin.ext h0
  have e2 : y 2 = k := Fin.ext h2
  unfold blockOut
  rw [e0, e2, h1]

theorem zero2 : (![0, 0] : Fin 2 → Nat) = fun _ => 0 := funext fun a => by fin_cases a <;> rfl

/-- A [64, 8192] vector given a unit middle axis reads, at (r, ·, k), the vector at (r, k): the two row-major
    positions are r · 8192 + k. -/
theorem unitMiddle_apply {α : Type} (v : S64x8192.Idx → α) (h : S64x8192.ShapeCasts S64x1x8192)
    (r : Fin 64) (u : Fin 1) (k : Fin 8192) : shapeCast S64x1x8192 v h (ix3 r u k) = v (ix2 r k) :=
  shapeCast_apply v h _ _ (by
    have hu : u.val = 0 := by omega
    rewrite [Shape.rowMajor_val_two, Shape.rowMajor_val_three]
    show r.val * 8192 + k.val = (r.val * 1 + u.val) * 8192 + k.val
    omega)

/-- The first store's value, at (r, ·, k): band 0 of the pair. -/
theorem plane0_apply (e o : Vec F S64x8192 .f32) (r : Fin 64) (u : Fin 1) (k : Fin 8192) :
    k0_pay1 (View.ld e r0_0) (View.ld o r0_0) (ix3 r u k) = band 0 (e (ix2 r k)) (o (ix2 r k)) := by
  unfold k0_pay1
  refine (unitMiddle_apply _ _ r u k).trans ?_
  simp only [shapeCast_self, View.ld_unit_zero (S := S64x8192) zero2]
  rfl

/-- The second store's value, at (r, ·, k): band 1 of the pair. -/
theorem plane1_apply (e o : Vec F S64x8192 .f32) (r : Fin 64) (u : Fin 1) (k : Fin 8192) :
    k0_pay2 (View.ld e r0_0) (View.ld o r0_0) (ix3 r u k) = band 1 (e (ix2 r k)) (o (ix2 r k)) := by
  unfold k0_pay2
  refine (unitMiddle_apply _ _ r u k).trans ?_
  simp only [shapeCast_self, View.ld_unit_zero (S := S64x8192) zero2]
  rfl

/-- The body's output block is `blockOut` of its input blocks: each store's value is the restriction of that one
    function to the store's plane, and the two planes cover the block. -/
theorem body_block (e o : Vec F S64x8192 .f32) : out0_2 e o = blockOut e o := by
  funext y
  unfold out0_2
  refine View.canon_apply_of_pieces (blockOut e o) _ ?_ y (cover0_2 _ _ y)
  intro p hp z
  simp only [List.mem_cons, List.mem_nil_iff, or_false] at hp
  rcases hp with rfl | rfl
  · obtain ⟨r, u, k, rfl⟩ : ∃ (r : Fin 64) (u : Fin 1) (k : Fin 8192), z = ix3 r u k := ⟨z 0, z 1, z 2, eq_ix3 z⟩
    have hu : u.val = 0 := by omega
    refine (plane1_apply e o r u k).trans (blockOut_at e o _ r 1 k ?_ ?_ ?_).symm
    · show 0 + 1 * r.val = r.val; omega
    · show 1 + 1 * u.val = 1; omega
    · show 0 + 1 * k.val = k.val; omega
  · obtain ⟨r, u, k, rfl⟩ : ∃ (r : Fin 64) (u : Fin 1) (k : Fin 8192), z = ix3 r u k := ⟨z 0, z 1, z 2, eq_ix3 z⟩
    have hu : u.val = 0 := by omega
    refine (plane0_apply e o r u k).trans (blockOut_at e o _ r 0 k ?_ ?_ ?_).symm
    · show 0 + 1 * r.val = r.val; omega
    · show 0 + 1 * u.val = 0; omega
    · show 0 + 1 * k.val = k.val; omega

end Cert.Haar.Body

end
-- ==== Proof.HaarHost.lean ====
/-
  The arrays the kernel's region is launched on.

  Before the region the host views the signal as [8192, 8192, 2] — 8192 rows of 8192 pairs —, takes the two unit
  slices of the last axis and drops that axis: the region's two operands are the even and the odd samples of every
  row. Entry (n, k) of a slice is the pair array's (n, k, s), whose row-major position (n · 8192 + k) · 2 + s is the
  signal's (n / 128 · 128 + n % 128) · 16384 + 2k + s.
-/
import proofs.«151751_j86955907874867_2_alg».proof.Proof.Gen.KernelIdeal.Frame
import proofs.«151751_j86955907874867_2_alg».proof.Proof.HaarSpec
import Idealize.ShloMosaic.Lib.StableHlo.Run

noncomputable section

namespace Cert.Haar.Host

open Idealize.ShloMosaic Idealize.ShloMosaic.TcCoe Idealize.ShloMosaic.ValueIdx Idealize.ShloMosaic.StableHlo
open Idealize.SL.Sem
open Cert.KernelIdeal Cert.KernelIdeal.Gen Cert.Haar

variable {F : FTy → Type} [FloatOps F]

/-- The slice at 0 of the pairs, its unit axis dropped, is the even samples. -/
theorem evens_read (x : Signal.Idx → F .f32) (h1 : Signal.ShapeCasts S8192x8192x2)
    (h2 : S8192x8192x2.Slices ![0, 0, 0] S8192x8192x1) (h3 : S8192x8192x1.ShapeCasts S8192x8192) :
    shapeCast S8192x8192 (extractStridedSlice S8192x8192x1 ![0, 0, 0] (shapeCast S8192x8192x2 x h1) h2) h3
      = half 0 x := by
  funext j
  obtain ⟨n, k, rfl⟩ : ∃ (n : Fin 8192) (k : Fin 8192), j = ix2 n k := ⟨j 0, j 1, eq_ix2 j⟩
  have hn := n.isLt
  have hk := k.isLt
  refine (shapeCast_apply _ h3 (ix2 n k) (ix3 n k (0 : Fin 1)) ?_).trans ?_
  · rewrite [Shape.rowMajor_val_three, Shape.rowMajor_val_two]
    show (n.val * 8192 + k.val) * 1 + 0 = n.val * 8192 + k.val
    omega
  refine (extractStridedSlice_apply ![0, 0, 0] _ h2 (ix3 n k (0 : Fin 1)) (ix3 n k (0 : Fin 2)) ?_).trans ?_
  · intro a
    match a with
    | ⟨0, _⟩ => show n.val = 0 + n.val; omega
    | ⟨1, _⟩ => show k.val = 0 + k.val; omega
    | ⟨2, _⟩ => rfl
  refine (shapeCast_apply x h1 (ix3 n k (0 : Fin 2))
    (ix3 (⟨n.val / 128, by omega⟩ : Fin 64) (⟨n.val % 128, by omega⟩ : Fin 128) (⟨2 * k.val + 0, by omega⟩ : Fin 16384)) ?_).trans ?_
  · rewrite [Shape.rowMajor_val_three, Shape.rowMajor_val_three]
    show (n.val / 128 * 128 + n.val % 128) * 16384 + (2 * k.val + 0) = (n.val * 8192 + k.val) * 2 + 0
    omega
  · rfl

/-- The slice at 1 of the pairs, its unit axis dropped, is the odd samples. -/
theorem odds_read (x : Signal.Idx → F .f32) (h1 : Signal.ShapeCasts S8192x8192x2)
    (h2 : S8192x8192x2.Slices ![0, 0, 1] S8192x8192x1) (h3 : S8192x8192x1.ShapeCasts S8192x8192) :
    shapeCast S8192x8192 (extractStridedSlice S8192x8192x1 ![0, 0, 1] (shapeCast S8192x8192x2 x h1) h2) h3
      = half 1 x := by
  funext j
  obtain ⟨n, k, rfl⟩ : ∃ (n : Fin 8192) (k : Fin 8192), j = ix2 n k := ⟨j 0, j 1, eq_ix2 j⟩
  have hn := n.isLt
  have hk := k.isLt
  refine (shapeCast_apply _ h3 (ix2 n k) (ix3 n k (0 : Fin 1)) ?_).trans ?_
  · rewrite [Shape.rowMajor_val_three, Shape.rowMajor_val_two]
    show (n.val * 8192 + k.val) * 1 + 0 = n.val * 8192 + k.val
    omega
  refine (extractStridedSlice_apply ![0, 0, 1] _ h2 (ix3 n k (0 : Fin 1)) (ix3 n k (1 : Fin 2)) ?_).trans ?_
  · intro a
    match a with
    | ⟨0, _⟩ => show n.val = 0 + n.val; omega
    | ⟨1, _⟩ => show k.val = 0 + k.val; omega
    | ⟨2, _⟩ => rfl
  refine (shapeCast_apply x h1 (ix3 n k (1 : Fin 2))
    (ix3 (⟨n.val / 128, by omega⟩ : Fin 64) (⟨n.val % 128, by omega⟩ : Fin 128) (⟨2 * k.val + 1, by omega⟩ : Fin 16384)) ?_).trans ?_
  · rewrite [Shape.rowMajor_val_three, Shape.rowMajor_val_three]
    show (n.val / 128 * 128 + n.val % 128) * 16384 + (2 * k.val + 1) = (n.val * 8192 + k.val) * 2 + 1
    omega
  · rfl

variable (m : (ℓ : Loc nD τ sig) → Buf (Elt F) ℓ)

/-- The region's first operand, as it finds it: the even samples of the signal as launched. -/
theorem evens (c : Dev nD) : (V m c main_v2 : S8192x8192.Idx → F .f32) = half 0 (m ((c : Thread nD τ).loc main_arg0)) := by
  refine Eq.trans ?_ (evens_read (m ((c : Thread nD τ).loc main_arg0)) shapeCasts_S64x128x16384_S8192x8192x2
    slices_S8192x8192x2_S8192x8192x1_0_0_0 shapeCasts_S8192x8192x1_S8192x8192)
  show StableHlo.after hostOps0 (fun b => m (c, b)) (Proc.devRef .tc main_v2) = _
  after_results
  rfl

/-- The region's second operand: the odd samples. -/
theorem odds (c : Dev nD) : (V m c main_v4 : S8192x8192.Idx → F .f32) = half 1 (m ((c : Thread nD τ).loc main_arg0)) := by
  refine Eq.trans ?_ (odds_read (m ((c : Thread nD τ).loc main_arg0)) shapeCasts_S64x128x16384_S8192x8192x2
    slices_S8192x8192x2_S8192x8192x1_0_0_1 shapeCasts_S8192x8192x1_S8192x8192)
  show StableHlo.after hostOps0 (fun b => m (c, b)) (Proc.devRef .tc main_v4) = _
  after_results
  rfl

end Cert.Haar.Host

end
-- ==== Proof.HaarArray.lean ====
/-
  The kernel's result as one function of the signal.

  The region runs over 128 grid points; point t is handed rows 64t … 64t + 63 of the even and of the odd samples and
  writes back rows 64t … 64t + 63 (both bands, all pairs) of the [8192, 2, 8192] coefficient rows. What point t writes is
  the body's block of its two input blocks, which is the block at t of `rows` of the signal: row r of the block is row
  64t + r of the operands. The 128 blocks tile the rows, so the region's output array ends as `rows` of the signal, and
  the host's final reshape of it to [64, 256, 8192] is the Haar transform.
-/
import proofs.«151751_j86955907874867_2_alg».proof.Proof.Gen.KernelIdeal.Frame
import proofs.«151751_j86955907874867_2_alg».proof.Proof.HaarSpec
import proofs.«151751_j86955907874867_2_alg».proof.Proof.HaarBody
import proofs.«151751_j86955907874867_2_alg».proof.Proof.HaarHost
import Idealize.ShloMosaic.Lib.Pipeline.Value
import Idealize.ShloMosaic.Lib.StableHlo.Run

set_option maxRecDepth 16384

noncomputable section

namespace Cert.Haar.Kernel

open Idealize.ShloMosaic Idealize.ShloMosaic.TcCoe Idealize.ShloMosaic.ValueIdx Idealize.ShloMosaic.StableHlo
open Idealize.SL.Sem
open Cert.KernelIdeal Cert.KernelIdeal.Gen Cert.Haar Cert.Haar.Body Cert.Haar.Host

variable {F : FTy → Type} [FloatOps F]

/-- The index maps over the grid: the two operands' blocks move with the output's along the rows and stay at 0
    along the pairs; the output's block stays at 0 along bands and pairs; there are 128 row blocks. -/
theorem idx_facts : ∀ t : Fin cfg0.N,
    win0_0.index t (0 : Fin 2) = win0_2.index t (0 : Fin 3) ∧ win0_0.index t (1 : Fin 2) = 0
    ∧ win0_1.index t (0 : Fin 2) = win0_2.index t (0 : Fin 3) ∧ win0_1.index t (1 : Fin 2) = 0
    ∧ win0_2.index t (1 : Fin 3) = 0 ∧ win0_2.index t (2 : Fin 3) = 0 ∧ win0_2.index t (0 : Fin 3) ≤ 127 :=
  (by decide +kernel : ∀ t : Fin grid0.N, _)

/-- Every row block is some point's. -/
theorem idx_onto : ∀ q : Fin 128, ∃ t : Fin cfg0.N, win0_2.index t = ![q.val, 0, 0] :=
  (by decide +kernel : ∀ q : Fin 128, ∃ t : Fin grid0.N, win0_2.index t = ![q.val, 0, 0])

variable (m : (ℓ : Loc nD τ sig) → Buf (Elt F) ℓ) (ρ : Dev nD → PrngReg)

/-- What point t writes back is block t of the coefficient rows of the signal. -/
theorem flushed_eq (c : Dev nD) (t : Fin cfg0.N) :
    (dats m 0 c).flushed 2 t = ((cfg0.win 2).blk t).view.read (Elt F) (rows (m ((c : Thread nD τ).loc main_arg0))) := by
  show (cfg0.win 2).cut (grid0.coords t) ((dats m 0 c).after 2 t) = _
  rw [after0_2, body_block (iblk m c 0 t) (iblk m c 1 t)]
  obtain ⟨e0, e1, e2, e3, e4, e5, e6⟩ := idx_facts t
  funext j
  have hj0 : (j 0).val < 64 := (j 0).isLt
  have hj1 : (j 1).val < 2 := (j 1).isLt
  have hj2 : (j 2).val < 8192 := (j 2).isLt
  show blockOut (iblk m c 0 t) (iblk m c 1 t) ((cfg0.win 2).xinj (grid0.coords t) j)
    = rows (m ((c : Thread nD τ).loc main_arg0)) (((cfg0.win 2).blk t).view.emb j)
  -- the block's entry (r, p, k) comes from the input blocks' (r, k)
  refine (blockOut_at (iblk m c 0 t) (iblk m c 1 t) _ (⟨(j 0).val, hj0⟩ : Fin 64) (j 1).val (⟨(j 2).val, hj2⟩ : Fin 8192) rfl rfl rfl).trans ?_
  -- and sits in the output array at row 64 t + r, band p, pair k
  refine Eq.trans ?_ (rows_at (m ((c : Thread nD τ).loc main_arg0)) _ (⟨win0_2.index t (0 : Fin 3) * 64 + (j 0).val, by omega⟩ : Fin 8192) (j 1).val
    (⟨(j 2).val, hj2⟩ : Fin 8192) ?_ ?_ ?_).symm
  · -- the input blocks' (r, k) are the operands' (64 t + r, k): the even and odd samples of that row
    have hE : iblk m c 0 t (ix2 (⟨(j 0).val, hj0⟩ : Fin 64) (⟨(j 2).val, hj2⟩ : Fin 8192))
        = sample (m ((c : Thread nD τ).loc main_arg0)) (⟨win0_2.index t (0 : Fin 3) * 64 + (j 0).val, by omega⟩ : Fin 8192) (⟨(j 2).val, hj2⟩ : Fin 8192) 0 := by
      show V m c main_v2 (((cfg0.win 0).blk t).view.emb (ix2 (⟨(j 0).val, hj0⟩ : Fin 64) (⟨(j 2).val, hj2⟩ : Fin 8192))) = _
      rw [evens m c]
      unfold half
      exact sample_congr _ 0
        (by show win0_0.index t (0 : Fin 2) * 64 + 1 * (j 0).val = win0_2.index t (0 : Fin 3) * 64 + (j 0).val; omega)
        (by show win0_0.index t (1 : Fin 2) * 8192 + 1 * (j 2).val = (j 2).val; omega)
    have hO : iblk m c 1 t (ix2 (⟨(j 0).val, hj0⟩ : Fin 64) (⟨(j 2).val, hj2⟩ : Fin 8192))
        = sample (m ((c : Thread nD τ).loc main_arg0)) (⟨win0_2.index t (0 : Fin 3) * 64 + (j 0).val, by omega⟩ : Fin 8192) (⟨(j 2).val, hj2⟩ : Fin 8192) 1 := by
      show V m c main_v4 (((cfg0.win 1).blk t).view.emb (ix2 (⟨(j 0).val, hj0⟩ : Fin 64) (⟨(j 2).val, hj2⟩ : Fin 8192))) = _
      rw [odds m c]
      unfold half
      exact sample_congr _ 1
        (by show win0_1.index t (0 : Fin 2) * 64 + 1 * (j 0).val = win0_2.index t (0 : Fin 3) * 64 + (j 0).val; omega)
        (by show win0_1.index t (1 : Fin 2) * 8192 + 1 * (j 2).val = (j 2).val; omega)
    rw [hE, hO]
  · show win0_2.index t (0 : Fin 3) * 64 + 1 * (j 0).val = win0_2.index t (0 : Fin 3) * 64 + (j 0).val; omega
  · show win0_2.index t (1 : Fin 3) * 2 + 1 * (j 1).val = (j 1).val; omega
  · show win0_2.index t (2 : Fin 3) * 8192 + 1 * (j 2).val = (j 2).val; omega

/-- An entry of the output array is in point t's block iff each coordinate is in the block's range on its axis. -/
theorem mem_blk (t : Fin cfg0.N) (i : S8192x2x8192.Idx) :
    i ∈ ((cfg0.win 2).blk t).view.set ↔ ∀ a : Fin 3, win0_2.index t a * S64x2x8192.size a ≤ (i a).val
      ∧ (i a).val < win0_2.index t a * S64x2x8192.size a + S64x2x8192.size a := by
  show i ∈ ((View.whole main_v5).slice (win0_2.rect t)).set ↔ _
  rw [View.set_slice_whole, Rect.mem_set_unit]
  exact Iff.rfl

/-- The blocks tile the array: row n is in the block of point n / 64. -/
theorem cover (i : S8192x2x8192.Idx) :
    ∃ t : Fin cfg0.N, (cfg0.win 2).flush t = true ∧ i ∈ ((cfg0.win 2).blk t).view.set := by
  have hi0 : (i 0).val < 8192 := (i 0).isLt
  have hi1 : (i 1).val < 2 := (i 1).isLt
  have hi2 : (i 2).val < 8192 := (i 2).isLt
  obtain ⟨t, ht⟩ := idx_onto ⟨(i 0).val / 64, by omega⟩
  have q0 : win0_2.index t (0 : Fin 3) = (i 0).val / 64 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 2 ≤ (i 1).val ∧ (i 1).val < win0_2.index t (1 : Fin 3) * 2 + 2; omega
  | ⟨2, _⟩ => show win0_2.index t (2 : Fin 3) * 8192 ≤ (i 2).val ∧ (i 2).val < win0_2.index t (2 : Fin 3) * 8192 + 8192; omega

/-- The region's output array after the run: the coefficient rows of the signal. -/
theorem final (c : Dev nD) : (dats m 0 c).arrAt 2 cfg0.N = rows (m ((c : Thread nD τ).loc main_arg0)) :=
  (dats m 0 c).arrAt_eq_of_cover 2 (rows (m ((c : Thread nD τ).loc main_arg0))) (fun t _ => flushed_eq m c t) cover

/-- The program's result: the host's reshape of the region's output, the Haar transform of the signal. -/
theorem result (c : Dev nD) :
    Pipeline.afterTail₀ cfgs (dats m) 0 (V0 m) [hostOps1] c main_v6 = haar (m ((c : Thread nD τ).loc main_arg0)) := by
  have hA : Pipeline.withArrays spec0 c (V0 m c) (fun w => (dats m 0 c).arrAt w cfg0.N) (Proc.devRef .tc main_v5)
      = rows (m ((c : Thread nD τ).loc main_arg0)) :=
    (Pipeline.withArrays_arr spec0 launch0.win.arr_inj c (V0 m c) (fun w => (dats m 0 c).arrAt w cfg0.N) 2).trans (final m c)
  unfold Pipeline.afterTail₀
  show StableHlo.after hostOps1 _ (Proc.devRef .tc main_v6) = _
  after_results
  exact (congrArg (fun z => shapeCast S64x256x8192 z shapeCasts_S8192x2x8192_S64x256x8192) hA).trans (rows_reshape _ _)

/-- Every weakly fair execution of the kernel's program terminates with its result the Haar transform of the signal as
    launched, and the signal unchanged. -/
theorem run : θ_run defs (onTc (τ := τ) (main (F := F))) ⟨m, fun _ => 0, ρ⟩ fun r => ∀ c : Dev nD,
      r.2.mem ((c : Thread nD τ).loc main_v6) = haar (m ((c : Thread nD τ).loc main_arg0))
      ∧ r.2.mem ((c : Thread nD τ).loc main_arg0) = m ((c : Thread nD τ).loc main_arg0) :=
  (θ_run defs _ _).mono (fun r h c =>
      ⟨((h c).2 main_v6 (Pipeline.mem_restRefs_of main_v6 (by decide) (by decide))).trans (result m c),
       ((h c).2 main_arg0 (Pipeline.mem_restRefs_of main_arg0 (by decide) (by decide))).trans (W_main_arg0 m (dats m) c)⟩)
    (run_main m ρ)

end Cert.Haar.Kernel

end
-- ==== Proof.lean ====
/-
  The kernel and its reference compute the same single-level Haar transform.

  Both programs split the signal x : [64, 128, 16384] into the even samples x[2k] and the odd samples x[2k + 1] of
  every (batch, channel) row by the same row-major reshape to pairs and the same two unit slices, form
  (x[2k] + x[2k+1]) · c and (x[2k] - x[2k+1]) · c with the same float word c, and lay the two coefficient rows of channel ch
  out as output channels 2 ch and 2 ch + 1. The reference does this with whole-array operations and a concatenation;
  the kernel does it 64 rows at a time over a grid of 128 points, storing the two coefficient planes of each block,
  and a final reshape of [8192, 2, 8192] to [64, 256, 8192]. Entry by entry the two results are the same operations of
  the same two signal entries with the same constant, in the same order: no law of arithmetic is needed, so no
  finiteness of the input is used, and nothing depends on how the float operations are read.

  Proof/HaarSpec.lean states the transform as one function of the signal; Proof/HaarReference.lean reads the reference's
  operations back to it; Proof/HaarBody.lean, Proof/HaarHost.lean and Proof/HaarArray.lean read the kernel's body, the
  host operations before the region and the region's output array and final reshape back to it. The three frame claims
  are the generated frames and the reference's generated run; the idealization rewrote nothing.
-/
import proofs.«151751_j86955907874867_2_alg».proof.Defs
import proofs.«151751_j86955907874867_2_alg».proof.Proof.Gen.Kernel
import proofs.«151751_j86955907874867_2_alg».proof.Proof.Gen.Kernel.Frame
import proofs.«151751_j86955907874867_2_alg».proof.Proof.Gen.KernelIdeal
import proofs.«151751_j86955907874867_2_alg».proof.Proof.Gen.KernelIdeal.Frame
import proofs.«151751_j86955907874867_2_alg».proof.Proof.Gen.ReferenceIdeal
import proofs.«151751_j86955907874867_2_alg».proof.Proof.Gen.ReferenceIdeal.Run
import proofs.«151751_j86955907874867_2_alg».proof.Proof.Gen.ReferenceIdeal.Read
import proofs.«151751_j86955907874867_2_alg».proof.Proof.Gen.Pre_finite_inputs
import proofs.«151751_j86955907874867_2_alg».proof.Proof.HaarReference
import proofs.«151751_j86955907874867_2_alg».proof.Proof.HaarArray
import Idealize.ShloMosaic.Adequacy
import Idealize.ShloMosaic.Init

noncomputable section

namespace Cert.Proof

open Idealize.ShloMosaic Idealize.ShloMosaic.TcCoe Idealize.SL.Sem

/-- The kernel as printed runs and leaves the signal unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the signal both programs end with the Haar transform of it. -/
theorem algebraic : Cert.algebraic_KernelIdeal_ReferenceIdeal := by
  intro m ρ m' ρ' _ hagree
  refine ⟨_, Cert.Haar.Kernel.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.Haar.Reference.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
